-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v14)) (v1 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_v7) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x8x256 : Shape := ⟨3, ![16384, 8, 256]⟩
abbrev S8x16384 : Shape := ⟨2, ![8, 16384]⟩
abbrev S16384x8 : Shape := ⟨2, ![16384, 8]⟩
abbrev S256x256 : Shape := ⟨2, ![256, 256]⟩
abbrev S256 : Shape := ⟨1, ![256]⟩
abbrev S_ : Shape := ⟨0, ![]⟩

class Facts : Prop where
  bcast_S_S16384x8x256 : S_.BroadcastsInDim S16384x8x256 (![] : Fin 0 → Fin S16384x8x256.rank)
  reducesTo_S16384x8x256_S_d0_1_2 : S16384x8x256.ReducesTo [0, 1, 2] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn {F : FTy → Type} [FloatOps F] (main_arg0 : FVec F S16384x8x256 .f32) (main_arg1 : IVec S8x16384 32) (main_arg2 : IVec S16384x8 32) (main_arg3 : FVec F S256x256 .f32) (main_arg4 : FVec F S256 .f32) : IVec S_ 1 :=
  let main_v0 : FVec F S16384x8x256 .f32 := Host.absf main_arg0
  let main_cst : FVec F S_ .f32 := constant S_ .f32 0x7F800000#32
  let main_v1 : FVec F S16384x8x256 .f32 := broadcastInDim S16384x8x256 ![] bcast_S_S16384x8x256 main_cst
  let main_v2 : IVec S16384x8x256 1 := cmpf .olt main_v0 main_v1
  let main_c : IVec S_ 1 := constantI S_ 1 1#1
  let main_v3 : IVec S_ 1 := (fun x v => Host.reduce IntOp.andi x v reducesTo_S16384x8x256_S_d0_1_2 h_S_) main_v2 main_c
  let main_v4 : FVec F S256x256 .f32 := Host.absf main_arg3
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  main_v13
-- ==== Kernel.lean ====
abbrev S16384x8x256 : Shape := ⟨3, ![16384, 8, 256]⟩
abbrev S8x16384 : Shape := ⟨2, ![8, 16384]⟩
abbrev S16384x8 : Shape := ⟨2, ![16384, 8]⟩
abbrev S256x256 : Shape := ⟨2, ![256, 256]⟩
abbrev S256 : Shape := ⟨1, ![256]⟩
abbrev S_ : Shape := ⟨0, ![]⟩
abbrev S131072x256 : Shape := ⟨2, ![131072, 256]⟩
abbrev S131072x1 : Shape := ⟨2, ![131072, 1]⟩
abbrev S4096x256 : Shape := ⟨2, ![4096, 256]⟩
abbrev S4096x1 : Shape := ⟨2, ![4096, 1]⟩
abbrev S1x256 : Shape := ⟨2, ![1, 256]⟩

abbrev nBuf : Space → Nat
  | .hbm => 22
  | .vmem => 8
  | .smem => 0
  | _ => 0

abbrev bufTy : (tb : Table) → Fin (tcTables nBuf tb) → BufTy
  | .hbm, ⟨0, _⟩ => ⟨S16384x8x256, .f32⟩
  | .hbm, ⟨1, _⟩ => ⟨S8x16384, .i32⟩
  | .hbm, ⟨2, _⟩ => ⟨S16384x8, .i32⟩
  | .hbm, ⟨3, _⟩ => ⟨S256x256, .f32⟩
  | .hbm, ⟨4, _⟩ => ⟨S256, .f32⟩
  | .hbm, ⟨5, _⟩ => ⟨S16384x8, .i32⟩
  | .hbm, ⟨6, _⟩ => ⟨S_, .i32⟩
  | .hbm, ⟨7, _⟩ => ⟨S16384x8, .i32⟩
  | .hbm, ⟨8, _⟩ => ⟨S16384x8, .i32⟩
  | .hbm, ⟨9, _⟩ => ⟨S16384x8, .f32⟩
  | .hbm, ⟨10, _⟩ => ⟨S_, .i32⟩
  | .hbm, ⟨11, _⟩ => ⟨S16384x8, .i32⟩
  | .hbm, ⟨12, _⟩ => ⟨S16384x8, .i1⟩
  | .hbm, ⟨13, _⟩ => ⟨S16384x8, .f32⟩
  | .hbm, ⟨14, _⟩ => ⟨S16384x8, .f32⟩
  | .hbm, ⟨15, _⟩ => ⟨S131072x256, .f32⟩
  | .hbm, ⟨16, _⟩ => ⟨S131072x1, .f32⟩
  | .hbm, ⟨17, _⟩ => ⟨S131072x1, .bf16⟩
  | .hbm, ⟨18, _⟩ => ⟨S256x256, .f32⟩
  | .hbm, ⟨19, _⟩ => ⟨S256x256, .bf16⟩
  | .hbm, ⟨20, _⟩ => ⟨S131072x256, .f32⟩
  | .hbm, ⟨21, _⟩ => ⟨S16384x8x256, .f32⟩
  | .local _ .vmem, ⟨0, _⟩ => ⟨S4096x256, .f32⟩
  | .local _ .vmem, ⟨1, _⟩ => ⟨S4096x256, .f32⟩
  | .local _ .vmem, ⟨2, _⟩ => ⟨S4096x1, .bf16⟩
  | .local _ .vmem, ⟨3, _⟩ => ⟨S4096x1, .bf16⟩
  | .local _ .vmem, ⟨4, _⟩ => ⟨S256x256, .bf16⟩
  | .local _ .vmem, ⟨5, _⟩ => ⟨S256, .f32⟩
  | .local _ .vmem, ⟨6, _⟩ => ⟨S4096x256, .f32⟩
  | .local _ .vmem, ⟨7, _⟩ => ⟨S4096x256, .f32⟩
  | _, _ => ⟨S16384x8x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x1 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4096x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  transposes_S8x16384_S16384x8_1_0 : S8x16384.Transposes [1, 0] S16384x8
  bcast_S_S16384x8 : S_.BroadcastsInDim S16384x8 (![] : Fin 0 → Fin S16384x8.rank)
  shapeCasts_S16384x8x256_S131072x256 : S16384x8x256.ShapeCasts S131072x256
  shapeCasts_S16384x8_S131072x1 : S16384x8.ShapeCasts S131072x1
  bitsLt_bf16_f32 : FTy.bits .bf16 < FTy.bits .f32
  transposes_S256x256_S256x256_1_0 : S256x256.Transposes [1, 0] S256x256
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256_S256_0 : ∀ a, (![0] : Fin 1 → Nat) a + S256.size a ≤ S256.size a
  h_S256 : 0 < S256.numel
  shapeCasts_S256_S1x256 : S256.ShapeCasts S1x256
  broadcasts_S1x256_S4096x256 : S1x256.Broadcasts S4096x256
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  broadcasts_S4096x1_S4096x256 : S4096x1.Broadcasts S4096x256
  shapeCasts_S131072x256_S16384x8x256 : S131072x256.ShapeCasts S16384x8x256
  dot_S4096x256_S256x256_S4096x256_1_0_0_1_n_n_wf : DotDims.WF S4096x256 S256x256 S4096x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S131072x256.size a
  hwx0_0 : ∀ i : grid0.Coords, EltTy.bits .f32 = 32 ∨ (Rect.block (s := S131072x256) S4096x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x1.size a ≤ S131072x1.size a
  hwx0_1 : ∀ i : grid0.Coords, EltTy.bits .bf16 = 32 ∨ (Rect.block (s := S131072x1) S4096x1.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .bf16 = 32 ∨ (Rect.block (s := S256x256) S256x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4096x256.size a ≤ S131072x256.size a
  hwx0_4 : ∀ i : grid0.Coords, EltTy.bits .f32 = 32 ∨ (Rect.block (s := S131072x256) S4096x256.size (cc0_transform_4 i) (hinb0_4 i)).WholeWords (EltTy.packing .f32)

variable [Facts₀]

def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf

abbrev win0_0 : Pipeline.Window sig grid0 :=
  Pipeline.Window.ofSpec (Memref.whole main_v8) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S4096x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S4096x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where
  halias0_4 : Pipeline.Aliased win0 0 4

variable [Facts]
-- ==== ReferenceIdeal.lean ====
abbrev S16384x8x256 : Shape := ⟨3, ![16384, 8, 256]⟩
abbrev S8x16384 : Shape := ⟨2, ![8, 16384]⟩
abbrev S16384x8 : Shape := ⟨2, ![16384, 8]⟩
abbrev S256x256 : Shape := ⟨2, ![256, 256]⟩
abbrev S256 : Shape := ⟨1, ![256]⟩
abbrev S_ : Shape := ⟨0, ![]⟩
abbrev S1x1x256 : Shape := ⟨3, ![1, 1, 256]⟩
abbrev S16384x8x1 : Shape := ⟨3, ![16384, 8, 1]⟩

abbrev nBuf : Space → Nat
  | .hbm => 32
  | .vmem => 0
  | .smem => 0
  | _ => 0

abbrev bufTy : (tb : Table) → Fin (tcTables nBuf tb) → BufTy
  | .hbm, ⟨0, _⟩ => ⟨S16384x8x256, .f32⟩
  | .hbm, ⟨1, _⟩ => ⟨S8x16384, .i32⟩
  | .hbm, ⟨2, _⟩ => ⟨S16384x8, .i32⟩
  | .hbm, ⟨3, _⟩ => ⟨S256x256, .f32⟩
  | .hbm, ⟨4, _⟩ => ⟨S256, .f32⟩
  | .hbm, ⟨5, _⟩ => ⟨S16384x8, .i32⟩
  | .hbm, ⟨6, _⟩ => ⟨S_, .i32⟩
  | .hbm, ⟨7, _⟩ => ⟨S16384x8, .i32⟩
  | .hbm, ⟨8, _⟩ => ⟨S16384x8, .i32⟩
  | .hbm, ⟨9, _⟩ => ⟨S16384x8, .f32⟩
  | .hbm, ⟨10, _⟩ => ⟨S_, .i32⟩
  | .hbm, ⟨11, _⟩ => ⟨S16384x8, .i32⟩
  | .hbm, ⟨12, _⟩ => ⟨S16384x8, .i1⟩
  | .hbm, ⟨13, _⟩ => ⟨S16384x8, .f32⟩
  | .hbm, ⟨14, _⟩ => ⟨S16384x8, .f32⟩
  | .hbm, ⟨15, _⟩ => ⟨S16384x8x256, .f32⟩
  | .hbm, ⟨16, _⟩ => ⟨S1x1x256, .f32⟩
  | .hbm, ⟨17, _⟩ => ⟨S16384x8x256, .f32⟩
  | .hbm, ⟨18, _⟩ => ⟨S16384x8x256, .f32⟩
  | .hbm, ⟨19, _⟩ => ⟨S_, .f32⟩
  | .hbm, ⟨20, _⟩ => ⟨S16384x8x256, .f32⟩
  | .hbm, ⟨21, _⟩ => ⟨S16384x8x256, .f32⟩
  | .hbm, ⟨22, _⟩ => ⟨S_, .f32⟩
  | .hbm, ⟨23, _⟩ => ⟨S16384x8, .f32⟩
  | .hbm, ⟨24, _⟩ => ⟨S16384x8, .f32⟩
  | .hbm, ⟨25, _⟩ => ⟨S16384x8x1, .f32⟩
  | .hbm, ⟨26, _⟩ => ⟨S16384x8x256, .f32⟩
  | .hbm, ⟨27, _⟩ => ⟨S16384x8x256, .f32⟩
  | .hbm, ⟨28, _⟩ => ⟨S16384x8x1, .f32⟩
  | .hbm, ⟨29, _⟩ => ⟨S16384x8x256, .f32⟩
  | .hbm, ⟨30, _⟩ => ⟨S16384x8x256, .f32⟩
  | .hbm, ⟨31, _⟩ => ⟨S16384x8x256, .f32⟩
  | _, _ => ⟨S16384x8x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_call0_cst : Ref sig .tc := ⟨.hbm, 19, rfl⟩
abbrev main_call0_v0 : Ref sig .tc := ⟨.hbm, 20, rfl⟩
abbrev main_v12 : Ref sig .tc := ⟨.hbm, 21, rfl⟩
abbrev main_cst : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩

abbrev nD : Nat := 1
abbrev τ : Topo := Topo.v7x

variable {F : FTy → Type} [FloatOps F]

class Facts₀ : Prop where
  transposes_S8x16384_S16384x8_1_0 : S8x16384.Transposes [1, 0] S16384x8
  bcast_S_S16384x8 : S_.BroadcastsInDim S16384x8 (![] : Fin 0 → Fin S16384x8.rank)
  bcast_S256_S1x1x256_2 : S256.BroadcastsInDim S1x1x256 (![2] : Fin 1 → Fin S1x1x256.rank)
  bcast_S1x1x256_S16384x8x256_0_1_2 : S1x1x256.BroadcastsInDim S16384x8x256 (![0, 1, 2] : Fin 3 → Fin S16384x8x256.rank)
  bcast_S_S16384x8x256 : S_.BroadcastsInDim S16384x8x256 (![] : Fin 0 → Fin S16384x8x256.rank)
  bcast_S16384x8_S16384x8x1_0_1 : S16384x8.BroadcastsInDim S16384x8x1 (![0, 1] : Fin 2 → Fin S16384x8x1.rank)
  bcast_S16384x8x1_S16384x8x256_0_1_2 : S16384x8x1.BroadcastsInDim S16384x8x256 (![0, 1, 2] : Fin 3 → Fin S16384x8x256.rank)
  dot_S16384x8x256_S256x256_S16384x8x256_2_1_01_0_n_n_wf : DotDims.WF S16384x8x256 S256x256 S16384x8x256 [2] [1] [0, 1] [0] [] []

variable [Facts₀]

def dot_S16384x8x256_S256x256_S16384x8x256_2_1_01_0_n_n : DotDims S16384x8x256 S256x256 S16384x8x256 where
  lhsContracting := [2]
  rhsContracting := [1]
  lhsNonContracting := [0, 1]
  rhsNonContracting := [0]
  lhsBatch := []
  rhsBatch := []
  wf := dot_S16384x8x256_S256x256_S16384x8x256_2_1_01_0_n_n_wf

class Facts : Prop extends Facts₀ where

variable [Facts]
-- ==== Proof.Blend.lean ====
/-
  A token x (n, b, ·) of 256 channels is replaced, where its mask entry μ(n, b) says so, by its rectified
  affine image y(n, b, d) = max (∑ k, x(n, b, k) · W(d, k) + β(d)) 0.  The replacement is written two ways:

    * as a step from x towards y :  x + μ · (y − x)
    * as a mix of the two        :  x · (1 − μ) + y · μ

  On the extended reals the two agree as soon as every entry of x, W, β and μ is a real number: then y is a real
  number too, and the identity is the ring identity  x + μ (y − x) = x (1 − μ) + y μ  of ℝ.  (At an infinite
  entry the two sides differ in general — distributing μ over y − x is not sound there — so realness is used.)
-/
import Idealize.ShloMosaic.PureOps.Ideal.Laws
import Idealize.ShloMosaic.Lib.ValueIdx

noncomputable section

open scoped BigOperators

namespace Cert.Blend

open Idealize.ShloMosaic Idealize.ShloMosaic.ValueIdx

/-- The tokens: 16384 × 8 of them, 256 channels each. -/
abbrev Tok : Shape := ⟨3, ![16384, 8, 256]⟩
/-- The weight matrix, output channel first. -/
abbrev Wt : Shape := ⟨2, ![256, 256]⟩
/-- The bias, one entry per output channel. -/
abbrev Bias : Shape := ⟨1, ![256]⟩
/-- The mask, one entry per token. -/
abbrev Msk : Shape := ⟨2, ![16384, 8]⟩

/-- The coercion of the reals into the extended reals commutes with finite sums. -/
theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- The pattern of the f32 one is the extended real 1. -/
theorem ofBits_one_f32 : Ideal.ofBits .f32 0x3F800000#32 = ((1 : ℝ) : EReal) := by
  simp [Ideal.ofBits, Ideal.ieee, -EReal.coe_mul]; norm_num

/-- The rectified affine image of token (n, b) at output channel d. -/
def image (x : Tok.Idx → EReal) (W : Wt.Idx → EReal) (β : Bias.Idx → EReal) (n : Fin 16384) (b : Fin 8) (d : Fin 256) : EReal :=
  max ((∑ k : Fin 256, x (ix3 n b k) * W (ix2 d k)) + β (ix1 d)) (Ideal.ofBits .f32 0x00000000#32)

/-- The step form, at token (n, b) and channel d. -/
def stepAt (x : Tok.Idx → EReal) (W : Wt.Idx → EReal) (β : Bias.Idx → EReal) (μ : Msk.Idx → EReal)
    (n : Fin 16384) (b : Fin 8) (d : Fin 256) : EReal :=
  x (ix3 n b d) + μ (ix2 n b) * (image x W β n b d - x (ix3 n b d))

/-- The mix form, at token (n, b) and channel d. -/
def mixAt (x : Tok.Idx → EReal) (W : Wt.Idx → EReal) (β : Bias.Idx → EReal) (μ : Msk.Idx → EReal)
    (n : Fin 16384) (b : Fin 8) (d : Fin 256) : EReal :=
  x (ix3 n b d) * (Ideal.ofBits .f32 0x3F800000#32 - μ (ix2 n b)) + image x W β n b d * μ (ix2 n b)

/-- The image of a real token under a real weight matrix and bias is a real number. -/
theorem image_real (x : Tok.Idx → EReal) (W : Wt.Idx → EReal) (β : Bias.Idx → EReal)
    (hx : ∀ i, ∃ r : ℝ, x i = r) (hW : ∀ i, ∃ r : ℝ, W i = r) (hβ : ∀ i, ∃ r : ℝ, β i = r)
    (n : Fin 16384) (b : Fin 8) (d : Fin 256) : ∃ y : ℝ, image x W β n b d = y := by
  choose xr hxr using hx
  choose wr hwr using hW
  choose br hbr using hβ
  refine ⟨max ((∑ k : Fin 256, xr (ix3 n b k) * wr (ix2 d k)) + br (ix1 d)) 0, ?_⟩
  unfold image
  rw [Ideal.ofBits_zero_f32, EReal.coe_strictMono.monotone.map_max, EReal.coe_add, coe_sum, hbr, EReal.coe_zero]
  refine congrArg (fun s => max (s + (br (ix1 d) : EReal)) _) (Finset.sum_congr rfl fun k _ => ?_)
  rw [hxr, hwr, EReal.coe_mul]

/-- THE LAW: on real entries the step form is the mix form. -/
theorem stepAt_eq_mixAt (x : Tok.Idx → EReal) (W : Wt.Idx → EReal) (β : Bias.Idx → EReal) (μ : Msk.Idx → EReal)
    (hx : ∀ i, ∃ r : ℝ, x i = r) (hW : ∀ i, ∃ r : ℝ, W i = r) (hβ : ∀ i, ∃ r : ℝ, β i = r) (hμ : ∀ i, ∃ r : ℝ, μ i = r)
    (n : Fin 16384) (b : Fin 8) (d : Fin 256) : stepAt x W β μ n b d = mixAt x W β μ n b d := by
  obtain ⟨y, hy⟩ := image_real x W β hx hW hβ n b d
  obtain ⟨a, ha⟩ := hx (ix3 n b d)
  obtain ⟨c, hc⟩ := hμ (ix2 n b)
  unfold stepAt mixAt
  rw [hy, ha, hc, ofBits_one_f32, ← EReal.coe_sub, ← EReal.coe_sub, ← EReal.coe_mul, ← EReal.coe_mul, ← EReal.coe_mul,
    ← EReal.coe_add, ← EReal.coe_add]
  exact congrArg _ (by ring)

end Cert.Blend

end
-- ==== Proof.Finite.lean ====
/-
  The precondition read back.  It says, of each of the three float arguments (tokens, weights, bias), that every
  entry's magnitude max x (−x) is strictly below +∞, all these comparisons conjoined.  An extended real whose magnitude is below +∞ is
  neither +∞ nor −∞: it is a real number.
-/
import proofs.«165763_j91336774517591_2_alg».proof.Pre_finite_inputs
import Idealize.ShloMosaic.PureOps.Ideal
import Idealize.ShloMosaic.PureOps.Ideal.Laws
import Idealize.ShloMosaic.Lib.ReduceAll
import Idealize.ShloMosaic.Lib.ValueIdx

noncomputable section

namespace Cert.Pre_finite_inputs.Decode

open Cert.Pre_finite_inputs Idealize.ShloMosaic

variable [Facts]

instance : Subsingleton S_.Idx := ⟨fun a b => funext fun d => d.elim0⟩

/-- An extended real whose magnitude compares below the pattern of +∞ is a real number. -/
theorem real_of_abs_lt (x : EReal)
    (h : Ideal.cmp .olt (max x (-x)) (Ideal.ofBits .f32 0x7F800000#32) = 1#1) : ∃ r : ℝ, x = r := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

/-- Under the precondition every entry of the three float arguments is a real number. -/
theorem real_of_pre (a0 : FVec Ideal S16384x8x256 .f32) (a1 : IVec S8x16384 32) (a2 : IVec S16384x8 32)
    (a3 : FVec Ideal S256x256 .f32) (a4 : FVec Ideal S256 .f32)
    (h : fn (F := Ideal) a0 a1 a2 a3 a4 = fun _ => 1#1) :
    (∀ i, ∃ r : ℝ, a0 i = r) ∧ (∀ i, ∃ r : ℝ, a3 i = r) ∧ (∀ i, ∃ r : ℝ, a4 i = r) := by
  have h0 := congrFun h ValueIdx.ix0
  dsimp only [fn] at h0
  obtain ⟨h01, h2⟩ := IntOp.andi_eq_one.mp h0
  obtain ⟨h0', h1⟩ := IntOp.andi_eq_one.mp h01
  refine ⟨fun i => ?_, fun i => ?_, fun i => ?_⟩
  · exact real_of_abs_lt _ (Host.reduce_andi_all _ _ _ _ _ h0' i)
  · exact real_of_abs_lt _ (Host.reduce_andi_all _ _ _ _ _ h1 i)
  · exact real_of_abs_lt _ (Host.reduce_andi_all _ _ _ _ _ h2 i)

end Cert.Pre_finite_inputs.Decode

end
-- ==== Proof.RefValue.lean ====
/-
  The reference's result, entry by entry.  At token (n, b) and channel d its last operation adds

      x(n, b, d) · (1 − μ(n, b))    and    max (∑ k, x(n, b, k) · W(d, k) + β(d)) 0 · μ(n, b),

  the mask μ broadcast along the channels, the bias along the tokens: the mix form.
-/
import proofs.«165763_j91336774517591_2_alg».proof.Proof.Gen.ReferenceIdeal.Read
import proofs.«165763_j91336774517591_2_alg».proof.Proof.Blend

noncomputable section

open scoped BigOperators

namespace Cert.ReferenceIdeal.RefValue

open Cert.ReferenceIdeal Cert.ReferenceIdeal.Gen Cert.ReferenceIdeal.Read Idealize.ShloMosaic Idealize.ShloMosaic.ValueIdx

/-- The reference's result at (n, b, d) is the mix form of the arguments and the reference's own mask. -/
theorem result_at (x0 : FVec Ideal S16384x8x256 .f32) (x1 : IVec S8x16384 32) (x2 : IVec S16384x8 32)
    (x3 : FVec Ideal S256x256 .f32) (x4 : FVec Ideal S256 .f32) (n : Fin 16384) (b : Fin 8) (d : Fin 256) :
    val_main_v21 (F := Ideal) x0 x1 x2 x3 x4 (ix3 n b d)
      = Cert.Blend.mixAt x0 x3 x4 (val_main_v7 (F := Ideal) x1 x2) n b d := by
  have e1 : idx_main_v15 (idx_main_v16 (ix3 n b d)) = ix2 n b :=
    funext fun a => Fin.ext (by match a with | ⟨0, _⟩ => rfl | ⟨1, _⟩ => rfl)
  have e2 : idx_main_v18 (idx_main_v19 (ix3 n b d)) = ix2 n b :=
    funext fun a => Fin.ext (by match a with | ⟨0, _⟩ => rfl | ⟨1, _⟩ => rfl)
  have e3 : ∀ k : Fin 256, lidx_main_v8 (ix3 n b d) k = ix3 n b k := fun k =>
    funext fun a => Fin.ext (by match a with | ⟨0, _⟩ => rfl | ⟨1, _⟩ => rfl | ⟨2, _⟩ => rfl)
  have e4 : ∀ k : Fin 256, ridx_main_v8 (ix3 n b d) k = ix2 d k := fun k =>
    funext fun a => Fin.ext (by match a with | ⟨0, _⟩ => rfl | ⟨1, _⟩ => rfl)
  have e5 : idx_main_v9 (idx_main_v10 (ix3 n b d)) = ix1 d :=
    funext fun a => Fin.ext (by match a with | ⟨0, _⟩ => rfl)
  rw [val_main_v21_apply, val_main_v17_apply, val_main_v20_apply, val_main_v16_apply, val_main_v15_apply,
    val_main_v14_apply, val_main_v13_apply, val_main_cst_apply, val_main_v19_apply, val_main_v18_apply,
    val_main_v12_apply, val_main_v11_apply, val_main_v8_apply, val_main_v10_apply, val_main_v9_apply,
    val_main_call0_v0_apply, val_main_call0_cst_apply]
  simp only [e1, e2, e3, e4, e5]
  rfl

end Cert.ReferenceIdeal.RefValue

end
-- ==== Proof.LibPlainDot.lean ====
/-
  A plain matrix product, M×K by K×N, at the ideal values, read at an index as the sum over the contracted coordinate of
  the products of the operands' entries — for the vector unit's `tpu.matmul` into the zero accumulator and for the host's
  `dot_general` alike. The contraction has one axis, of extent K: its index is that one coordinate (`contrE`), the left
  operand's index at (r, c) and k is (r, k), the right operand's is (k, c).
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

variable {M K N : Nat}

/-- The one-axis contraction index of a plain product is its coordinate. -/
def contrE (M K N : Nat) : (DotDims.plain M K N).contr.Idx ≃ Fin K :=
  contrEquiv1 (DotDims.plain M K N) K rfl rfl

theorem contrE_symm_val (k : Fin K) :
    ((contrE M K N).symm k ⟨0, by have h : (DotDims.plain M K N).contr.rank = 1 := rfl; omega⟩ : ℕ) = k.val :=
  contrEquiv1_symm_val (DotDims.plain M K N) K rfl rfl k

/-- The left operand is read at (row of the result, contracted coordinate). -/
theorem lhsIdx_eq (r : Fin M) (c : Fin N) (k : Fin K) :
    (DotDims.plain M K N).lhsIdx (ix2 r c) ((contrE M K N).symm k) = ix2 r k := by
  funext a
  apply Fin.ext
  match a with
  | ⟨0, _⟩ => rfl
  | ⟨1, _⟩ => exact ((DotDims.plain M K N).lhsIdx_val_of_single (cl := 1) rfl (ix2 r c) _).trans (contrE_symm_val k)

/-- The right operand is read at (contracted coordinate, column of the result). -/
theorem rhsIdx_eq (r : Fin M) (c : Fin N) (k : Fin K) :
    (DotDims.plain M K N).rhsIdx (ix2 r c) ((contrE M K N).symm k) = ix2 k c := by
  funext a
  apply Fin.ext
  match a with
  | ⟨0, _⟩ => exact ((DotDims.plain M K N).rhsIdx_val_of_single (cr := 0) rfl (ix2 r c) _).trans (contrE_symm_val k)
  | ⟨1, _⟩ => rfl

/-- The sum over the contraction index of a plain product, re-indexed by the contracted coordinate. -/
theorem sum_contr (f : (⟨2, ![M, K]⟩ : Shape).Idx → EReal) (g : (⟨2, ![K, N]⟩ : Shape).Idx → EReal) (r : Fin M) (c : Fin N) :
    (∑ k : (DotDims.plain M K N).contr.Idx, f ((DotDims.plain M K N).lhsIdx (ix2 r c) k) * g ((DotDims.plain M K N).rhsIdx (ix2 r c) k))
      = ∑ k : Fin K, f (ix2 r k) * g (ix2 k c) := by
  rw [← Equiv.sum_comp (contrE M K N).symm]
  exact Finset.sum_congr rfl fun k _ => by rw [lhsIdx_eq, rhsIdx_eq]

/-- `tpu.matmul` into the zero accumulator, at (r, c). -/
theorem matmul_zero_apply {φ₁ φ₂ : FTy} (prec : Option ContractPrecision)
    (x : FVec Ideal ⟨2, ![M, K]⟩ φ₁) (w : FVec Ideal ⟨2, ![K, N]⟩ φ₂) (r : Fin M) (c : Fin N) :
    FloatOps.matmul (DotDims.plain M K N) prec x w (constant (⟨2, ![M, N]⟩ : Shape) .f32 0x00000000#32) (ix2 r c)
      = ∑ k : Fin K, x (ix2 r k) * w (ix2 k c) :=
  (Ideal.matmul_constant_zero_apply (DotDims.plain M K N) prec x w (ix2 r c)).trans (sum_contr x w r c)

/-- The host's `dot_general`, at (r, c). -/
theorem dotGeneral_apply {φ₁ φ₂ : FTy} (prec : Option ContractPrecision) (sched : HostSchedule)
    (x : FVec Ideal ⟨2, ![M, K]⟩ φ₁) (w : FVec Ideal ⟨2, ![K, N]⟩ φ₂) (r : Fin M) (c : Fin N) :
    FloatOps.dotGeneral (DotDims.plain M K N) prec sched x w (ix2 r c) = ∑ k : Fin K, x (ix2 r k) * w (ix2 k c) :=
  (Ideal.dotGeneral_apply (DotDims.plain M K N) prec sched x w (ix2 r c)).trans (sum_contr x w r c)

end Idealize.ShloMosaic.PlainDot

end
-- ==== Proof.LibKeepdims.lean ====
/-
  A column kept as a unit axis: the two layout operations a row-wise reduction with its axis kept goes through.

  * A length-a vector cast to an a×1 array reads, at (i, u), the vector at i (the unit coordinate u is 0).
  * An a×1 array broadcast to a×b reads, at (p, c), the column's entry at (p, 0), whatever the column c.
-/
import Idealize.ShloMosaic.Lib.Pipeline.Value
import Idealize.ShloMosaic.Lib.ValueIdx
import Idealize.ShloMosaic.Lib.ValueLayout

noncomputable section

namespace Idealize.ShloMosaic.Keepdims

open Idealize.ShloMosaic Idealize.ShloMosaic.ValueIdx

variable {α : Type}

/-- A vector of length a cast to a×1 reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An a×1 column broadcast to a×b reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.Keepdims

end
-- ==== Proof.Payload.lean ====
/-
  What the kernel body computes for one block of 4096 flattened tokens, entry by entry.  With x the block's
  4096 × 256 tokens, μ its 4096 × 1 mask column, V the 256 × 256 matrix (input channel first) and β the bias,
  the stored value at (r, d) is

      x(r, d) + μ(r, 0) · ( max (∑ k, x(r, k) · V(k, d) + β(d)) 0 − x(r, d) ).

  The matrix product into the zero accumulator is the plain sum over the contracted coordinate; the bias is one row
  repeated down the block, the mask one column repeated across it; the changes of float format are the identity on
  the extended reals.
-/
import proofs.«165763_j91336774517591_2_alg».proof.Proof.Gen.KernelIdeal.Skeleton
import proofs.«165763_j91336774517591_2_alg».proof.Proof.LibPlainDot
import proofs.«165763_j91336774517591_2_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Body

open Cert.KernelIdeal Cert.KernelIdeal.Gen Idealize.ShloMosaic Idealize.ShloMosaic.ValueIdx

/-- The body's product is the plain 4096 × 256 by 256 × 256 one. -/
theorem dot_plain : dot_S4096x256_S256x256_S4096x256_1_0_0_1_n_n = DotDims.plain 4096 256 256 := rfl

/-- The stored value at row r and channel d of the block. -/
theorem pay_apply (x0 : Vec Ideal S4096x256 .f32) (x2 : Vec Ideal S256x256 .bf16) (x3 : Vec Ideal S256 .f32)
    (x1 : Vec Ideal S4096x1 .bf16) (r : Fin 4096) (d : Fin 256) :
    k0_pay1 (F := Ideal) x0 x2 x3 x1 (ix2 r d)
      = x0 (ix2 r d) + x1 (ix2 r (0 : Fin 1))
          * (max ((∑ k : Fin 256, x0 (ix2 r k) * x2 (ix2 k d)) + x3 (ix1 d)) (Ideal.ofBits .f32 0x00000000#32) - x0 (ix2 r d)) := by
  unfold k0_pay1
  rw [addf_apply, mulf_apply, subf_apply, maximumf_apply, addf_apply]
  simp only [shapeCast_self]
  rw [Keepdims.broadcastTo_a1_ab_apply, broadcastTo_1b_ab_apply, shapeCast_a_1a_apply, dot_plain]
  simp only [matmul]
  rw [PlainDot.matmul_zero_apply]
  rfl

end Cert.KernelIdeal.Body

end
-- ==== Proof.Blocks.lean ====
/-
  From blocks to the whole array.  The grid has 32 points; point t works on rows 4096·t … 4096·t + 4095 of the
  flattened 131072 × 256 token array and of the 131072 × 1 mask column, on the whole 256 × 256 matrix and the whole
  bias, and writes rows 4096·t … 4096·t + 4095 of the result.  So the block it writes is the restriction to those
  rows of ONE function of the four arrays as the region finds them,

      (p, d) ↦ A(p, d) + M(p, 0) · ( max (∑ k, A(p, k) · V(k, d) + B(d)) 0 − A(p, d) ),

  and since the 32 row ranges cover all 131072 rows the result array ends holding that function.
-/
import proofs.«165763_j91336774517591_2_alg».proof.Proof.Gen.KernelIdeal.Frame
import proofs.«165763_j91336774517591_2_alg».proof.Proof.Payload
import Idealize.ShloMosaic.Lib.Pipeline.Value
import Idealize.ShloMosaic.Lib.Tactic

set_option maxRecDepth 16384

noncomputable section

open scoped BigOperators

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

theorem hz2 : (![0, 0] : Fin 2 → Nat) = fun _ => 0 := funext fun a => by fin_cases a <;> rfl
theorem hz1 : (![0] : Fin 1 → Nat) = fun _ => 0 := funext fun a => by fin_cases a <;> rfl

/-- The value at flattened row p and channel d, from the flattened tokens A, the mask column M, the matrix V
    (input channel first) and the bias B. -/
def flatStep (A : S131072x256.Idx → EReal) (M : S131072x1.Idx → EReal) (V : S256x256.Idx → EReal) (B : S256.Idx → EReal)
    (p : Fin 131072) (d : Fin 256) : EReal :=
  A (ix2 p d) + M (ix2 p (0 : Fin 1))
    * (max ((∑ k : Fin 256, A (ix2 p k) * V (ix2 k d)) + B (ix1 d)) (Ideal.ofBits .f32 0x00000000#32) - A (ix2 p d))

/-- The same as an array over the flattened rows. -/
def flatArr (A : S131072x256.Idx → EReal) (M : S131072x1.Idx → EReal) (V : S256x256.Idx → EReal) (B : S256.Idx → EReal) :
    S131072x256.Idx → EReal := fun j => flatStep A M V B (j 0) (j 1)

/-- The block index of every window at every point: the token, mask and result windows move down the rows with the
    point, the matrix and the bias stay. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = t.val ∧ win0_4.index t (1 : Fin 2) = 0 :=
  (by decide +kernel : ∀ t : Fin grid0.N, _)

/-- The token window's block at point t is rows 4096·t … of the flattened tokens. -/
theorem tokens_apply (c : Dev nD) (t : Fin cfg0.N) (y : S4096x256.Idx) (k : S131072x256.Idx)
    (hk0 : (k 0).val = t.val * 4096 + (y 0).val) (hk1 : (k 1).val = (y 1).val) :
    (iblk m c 0 t : Vec Ideal S4096x256 .f32) y = (V m c main_v8 : S131072x256.Idx → EReal) k := by
  obtain ⟨e0, e1, -⟩ := idx_facts t
  unfold iblk
  rw [View.read_apply]
  refine congrArg (V m c main_v8 : S131072x256.Idx → EReal) (funext fun a => Fin.ext ?_)
  match a with
  | ⟨0, _⟩ => show win0_0.index t 0 * 4096 + 1 * (y 0).val = (k 0).val; rw [e0, hk0]; omega
  | ⟨1, _⟩ => show win0_0.index t 1 * 256 + 1 * (y 1).val = (k 1).val; rw [e1, hk1]; omega

/-- The mask window's block at point t is rows 4096·t … of the mask column. -/
theorem mask_apply (c : Dev nD) (t : Fin cfg0.N) (y : S4096x1.Idx) (k : S131072x1.Idx)
    (hk0 : (k 0).val = t.val * 4096 + (y 0).val) (hk1 : (k 1).val = (y 1).val) :
    (iblk m c 1 t : Vec Ideal S4096x1 .bf16) y = (V m c main_v10 : S131072x1.Idx → EReal) k := by
  obtain ⟨-, -, e0, e1, -⟩ := idx_facts t
  unfold iblk
  rw [View.read_apply]
  refine congrArg (V m c main_v10 : S131072x1.Idx → EReal) (funext fun a => Fin.ext ?_)
  match a with
  | ⟨0, _⟩ => show win0_1.index t 0 * 4096 + 1 * (y 0).val = (k 0).val; rw [e0, hk0]; omega
  | ⟨1, _⟩ => show win0_1.index t 1 * 1 + 1 * (y 1).val = (k 1).val; rw [e1, hk1]; omega

/-- The matrix window's block is the whole matrix, at every point. -/
theorem matrix_eq (c : Dev nD) (t : Fin cfg0.N) :
    (iblk m c 2 t : Vec Ideal S256x256 .bf16) = (V m c main_v12 : S256x256.Idx → EReal) := by
  obtain ⟨-, -, -, -, e0, e1, -⟩ := idx_facts t
  funext y
  unfold iblk
  rw [View.read_apply]
  refine congrArg (V m c main_v12 : S256x256.Idx → EReal) (funext fun a => Fin.ext ?_)
  match a with
  | ⟨0, _⟩ => show win0_2.index t 0 * 256 + 1 * (y 0).val = (y 0).val; rw [e0]; omega
  | ⟨1, _⟩ => show win0_2.index t 1 * 256 + 1 * (y 1).val = (y 1).val; rw [e1]; omega

/-- The bias window's block is the whole bias, at every point. -/
theorem bias_eq (c : Dev nD) (t : Fin cfg0.N) :
    (iblk m c 3 t : Vec Ideal S256 .f32) = (V m c main_arg4 : S256.Idx → EReal) := by
  obtain ⟨-, -, -, -, -, -, e0, -⟩ := idx_facts t
  funext y
  unfold iblk
  rw [View.read_apply]
  refine congrArg (V m c main_arg4 : S256.Idx → EReal) (funext fun a => Fin.ext ?_)
  match a with
  | ⟨0, _⟩ => show win0_3.index t 0 * 256 + 1 * (y 0).val = (y 0).val; rw [e0]; omega

/-- The array index of entry y of point t's result block. -/
def rowOf (t : Fin cfg0.N) (y : S4096x256.Idx) : S131072x256.Idx :=
  ix2 (⟨t.val * 4096 + (y 0).val, by have ht : t.val < 32 := Nat.lt_of_lt_of_eq t.isLt N_0; have hy : (y 0).val < 4096 := (y 0).isLt; omega⟩ : Fin 131072) (y 1)

/-- What the body stores at point t is the one function of the four arrays, on that point's rows. -/
theorem body_block (c : Dev nD) (t : Fin cfg0.N) :
    k0_pay1 (F := Ideal) (iblk m c 0 t) (iblk m c 2 t) (iblk m c 3 t) (iblk m c 1 t)
      = fun y : S4096x256.Idx => flatArr (V m c main_v8) (V m c main_v10) (V m c main_v12) (V m c main_arg4) (rowOf t y) := by
  funext y
  obtain ⟨r, d, rfl⟩ : ∃ (r : Fin 4096) (d : Fin 256), y = ix2 r d := ⟨y 0, y 1, eq_ix2 y⟩
  refine (Body.pay_apply (iblk m c 0 t) (iblk m c 2 t) (iblk m c 3 t) (iblk m c 1 t) r d).trans ?_
  have e0 : ∀ k : Fin 256, (iblk m c 0 t : Vec Ideal S4096x256 .f32) (ix2 r k)
      = (V m c main_v8 : S131072x256.Idx → EReal) (ix2 ((rowOf t (ix2 r d)) 0) k) :=
    fun k => tokens_apply m c t _ _ rfl rfl
  have e1 : (iblk m c 1 t : Vec Ideal S4096x1 .bf16) (ix2 r (0 : Fin 1))
      = (V m c main_v10 : S131072x1.Idx → EReal) (ix2 ((rowOf t (ix2 r d)) 0) (0 : Fin 1)) :=
    mask_apply m c t _ _ rfl rfl
  rw [matrix_eq m c t, bias_eq m c t, e1]
  simp only [e0]
  rfl

/-- WHAT POINT t WRITES BACK is rows 4096·t … of the one function. -/
theorem flushed_eq (c : Dev nD) (t : Fin cfg0.N) :
    (dats m 0 c).flushed 4 t = ((cfg0.win 4).blk t).view.read (Elt Ideal)
      (flatArr (V m c main_v8) (V m c main_v10) (V m c main_v12) (V m c main_arg4)) := by
  show (cfg0.win 4).cut (grid0.coords t) ((dats m 0 c).after 4 t) = _
  rw [after0_4]
  unfold out0_4
  rw [View.canon_unit_zero hz2]
  simp only [View.ld_unit_zero (S := S4096x256) hz2, View.ld_unit_zero (S := S256x256) hz2,
    View.ld_unit_zero (S := S256) hz1, View.ld_unit_zero (S := S4096x1) hz2]
  rw [body_block]
  obtain ⟨-, -, -, -, -, -, -, e0, e1⟩ := idx_facts t
  funext y
  show flatArr _ _ _ _ (rowOf t y) = flatArr _ _ _ _ (((cfg0.win 4).blk t).view.emb y)
  refine congrArg _ (funext fun a => Fin.ext ?_)
  match a with
  | ⟨0, _⟩ => show t.val * 4096 + (y 0).val = win0_4.index t 0 * 4096 + 1 * (y 0).val; rw [e0]; omega
  | ⟨1, _⟩ => show (y 1).val = win0_4.index t 1 * 256 + 1 * (y 1).val; rw [e1]; omega

/-- An index of the result array is in point t's block iff each coordinate is in the block's range on its axis. -/
theorem mem_blk (t : Fin cfg0.N) (i : S131072x256.Idx) :
    i ∈ ((cfg0.win 4).blk t).view.set ↔ ∀ a : Fin 2, win0_4.index t a * S4096x256.size a ≤ (i a).val
      ∧ (i a).val < win0_4.index t a * S4096x256.size a + S4096x256.size a := by
  show i ∈ ((View.whole main_v13).slice (win0_4.rect t)).set ↔ _
  rw [View.set_slice_whole, Rect.mem_set_unit]
  exact Iff.rfl

/-- Row p of the result array is written by point p / 4096. -/
theorem cover (i : S131072x256.Idx) :
    ∃ t : Fin cfg0.N, (cfg0.win 4).flush t = true ∧ i ∈ ((cfg0.win 4).blk t).view.set := by
  have h0 : (i 0).val < 131072 := (i 0).isLt
  have h1 : (i 1).val < 256 := (i 1).isLt
  have hN : cfg0.N = 32 := N_0
  have hq : (i 0).val / 4096 < cfg0.N := by rw [hN]; omega
  obtain ⟨-, -, -, -, -, -, -, e0, e1⟩ := idx_facts ⟨(i 0).val / 4096, hq⟩
  refine ⟨⟨(i 0).val / 4096, hq⟩, flush0_4 _, ?_⟩
  rw [mem_blk]
  intro a
  match a with
  | ⟨0, _⟩ =>
    show win0_4.index ⟨(i 0).val / 4096, hq⟩ 0 * 4096 ≤ (i 0).val ∧ (i 0).val < win0_4.index ⟨(i 0).val / 4096, hq⟩ 0 * 4096 + 4096
    rw [e0]; show (i 0).val / 4096 * 4096 ≤ (i 0).val ∧ (i 0).val < (i 0).val / 4096 * 4096 + 4096; omega
  | ⟨1, _⟩ =>
    show win0_4.index ⟨(i 0).val / 4096, hq⟩ 1 * 256 ≤ (i 1).val ∧ (i 1).val < win0_4.index ⟨(i 0).val / 4096, hq⟩ 1 * 256 + 256
    rw [e1]; omega

/-- THE RESULT ARRAY after the region: the one function of the four arrays as the region finds them. -/
theorem final (c : Dev nD) :
    (dats m 0 c).arrAt 4 cfg0.N = flatArr (V m c main_v8) (V m c main_v10) (V m c main_v12) (V m c main_arg4) :=
  (dats m 0 c).arrAt_eq_of_cover 4 _ (fun t _ => flushed_eq m c t) cover

end Cert.KernelIdeal.Blocks

end
-- ==== Proof.Entry.lean ====
/-
  The arrays as the region finds them.  Before the region @main computes, from the arguments,

    * the mask μ(n, b) = [fg(n, b) ≠ 0] · (1 − pad(b, n)), a product of two integers read as real numbers;
    * the tokens flattened to 131072 rows: row 8·n + b is token (n, b);
    * the mask flattened to a 131072 × 1 column: row 8·n + b holds μ(n, b);
    * the weight matrix transposed: entry (k, d) is W(d, k)

  (the two changes of float format on the way are the identity on the extended reals).
-/
import proofs.«165763_j91336774517591_2_alg».proof.Proof.Gen.KernelIdeal.Frame
import Idealize.ShloMosaic.Lib.StableHlo.Run
import Idealize.ShloMosaic.Lib.Pipeline.Value
import Idealize.ShloMosaic.Lib.ValueIdx
import Idealize.ShloMosaic.Lib.ValueLayout
import Idealize.ShloMosaic.Lib.Tactic
import Idealize.ShloMosaic.PureOps.Ideal

noncomputable section

namespace Cert.KernelIdeal.Entry

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- The mask, from the padding flags (argument 1) and the foreground flags (argument 2). -/
def mask (c : Dev nD) : FVec Ideal S16384x8 .f32 :=
  mulf (uitofp .f32 (cmpi .ne (m ((c : Thread nD τ).loc main_arg2)) (broadcastInDim S16384x8 ![] bcast_S_S16384x8 (constantI S_ 32 0#32))))
    (sitofp .f32 (subi (broadcastInDim S16384x8 ![] bcast_S_S16384x8 (constantI S_ 32 1#32))
      (transpose S16384x8 [1, 0] (m ((c : Thread nD τ).loc main_arg1)) transposes_S8x16384_S16384x8_1_0)))

/-- Every mask entry is a real number: a product of two integers. -/
theorem mask_real (c : Dev nD) (i : S16384x8.Idx) : ∃ r : ℝ, mask m c i = r := by
  unfold mask
  exact ⟨_, (EReal.coe_mul _ _).symm⟩

theorem mask_found (c : Dev nD) : (V m c main_v7 : FVec Ideal S16384x8 .f32) = mask m c := by
  show StableHlo.after hostOps0 (fun b => m (c, b)) (Proc.devRef .tc main_v7) = _
  after_results <;> rfl

theorem tokens_found (c : Dev nD) : (V m c main_v8 : FVec Ideal S131072x256 .f32)
    = shapeCast S131072x256 (m ((c : Thread nD τ).loc main_arg0) : FVec Ideal S16384x8x256 .f32) shapeCasts_S16384x8x256_S131072x256 := by
  show StableHlo.after hostOps0 (fun b => m (c, b)) (Proc.devRef .tc main_v8) = _
  after_results <;> rfl

theorem maskcol_found (c : Dev nD) : (V m c main_v10 : FVec Ideal S131072x1 .bf16)
    = truncf .bf16 (shapeCast S131072x1 (mask m c) shapeCasts_S16384x8_S131072x1) bitsLt_bf16_f32 := by
  show StableHlo.after hostOps0 (fun b => m (c, b)) (Proc.devRef .tc main_v10) = _
  after_results <;> rfl

theorem matrix_found (c : Dev nD) : (V m c main_v12 : FVec Ideal S256x256 .bf16)
    = truncf (F := Ideal) .bf16 (transpose S256x256 [1, 0] (m ((c : Thread nD τ).loc main_arg3) : FVec Ideal S256x256 .f32) transposes_S256x256_S256x256_1_0) bitsLt_bf16_f32 := by
  show StableHlo.after hostOps0 (fun b => m (c, b)) (Proc.devRef .tc main_v12) = _
  after_results <;> rfl

/-- The flattened row of token (n, b). -/
def row (n : Fin 16384) (b : Fin 8) : Fin 131072 := ⟨n.val * 8 + b.val, by omega⟩

/-- Row 8·n + b of the flattened tokens is token (n, b). -/
theorem tokens_at (c : Dev nD) (n : Fin 16384) (b : Fin 8) (k : Fin 256) :
    (V m c main_v8 : FVec Ideal S131072x256 .f32) (ix2 (row n b) k)
      = (m ((c : Thread nD τ).loc main_arg0) : FVec Ideal S16384x8x256 .f32) (ix3 n b k) := by
  rw [tokens_found]
  exact shapeCast_apply _ _ _ _ (by
    show (S16384x8x256.rowMajor (ix3 n b k)).val = (S131072x256.rowMajor (ix2 (row n b) k)).val
    rw [Shape.rowMajor_val_three, Shape.rowMajor_val_two]
    rfl)

/-- Row 8·n + b of the mask column is μ(n, b). -/
theorem maskcol_at (c : Dev nD) (n : Fin 16384) (b : Fin 8) :
    (V m c main_v10 : FVec Ideal S131072x1 .bf16) (ix2 (row n b) (0 : Fin 1)) = mask m c (ix2 n b) := by
  rw [maskcol_found]
  show shapeCast S131072x1 (mask m c) shapeCasts_S16384x8_S131072x1 (ix2 (row n b) (0 : Fin 1)) = _
  exact shapeCast_apply _ _ _ _ (by
    show (S16384x8.rowMajor (ix2 n b)).val = (S131072x1.rowMajor (ix2 (row n b) (0 : Fin 1))).val
    rw [Shape.rowMajor_val_two, Shape.rowMajor_val_two]
    show n.val * 8 + b.val = (n.val * 8 + b.val) * 1 + 0
    omega)

/-- Entry (k, d) of the transposed matrix is W(d, k). -/
theorem matrix_at (c : Dev nD) (k d : Fin 256) :
    (V m c main_v12 : FVec Ideal S256x256 .bf16) (ix2 k d)
      = (m ((c : Thread nD τ).loc main_arg3) : FVec Ideal S256x256 .f32) (ix2 d k) := by
  rw [matrix_found]
  exact transpose_ix2_apply _ _ k d

end Cert.KernelIdeal.Entry

end
-- ==== Proof.Result.lean ====
/-
  The kernel's two results.  After the region @main reshapes the 131072 × 256 result array back to tokens: entry
  (n, b, d) is row 8·n + b, channel d.  With the region's array the one function of Blocks and the four arrays it
  reads as Entry finds them, the first result at (n, b, d) is the step form

      x(n, b, d) + μ(n, b) · ( max (∑ k, x(n, b, k) · W(d, k) + β(d)) 0 − x(n, b, d) )

  of the arguments and the mask; the second result is the mask itself, which nothing after its computation writes.
-/
import proofs.«165763_j91336774517591_2_alg».proof.Proof.Blocks
import proofs.«165763_j91336774517591_2_alg».proof.Proof.Entry
import proofs.«165763_j91336774517591_2_alg».proof.Proof.Blend
import Idealize.ShloMosaic.Lib.StableHlo.Run

noncomputable section

open scoped BigOperators

namespace Cert.KernelIdeal.Result

open Cert.KernelIdeal Cert.KernelIdeal.Gen Idealize.ShloMosaic Idealize.ShloMosaic.TcCoe Idealize.SL.Sem
open Idealize.ShloMosaic.StableHlo Idealize.ShloMosaic.ValueIdx
open Idealize.ShloMosaic.Pipeline (Dat)

variable (m : (ℓ : Loc nD τ sig) → Buf (Elt Ideal) ℓ) (ρ : Dev nD → PrngReg)

/-- The first result: the region's array, reshaped to tokens. -/
def out (c : Dev nD) : FVec Ideal S16384x8x256 .f32 :=
  shapeCast S16384x8x256 (Blocks.flatArr (V m c main_v8) (V m c main_v10) (V m c main_v12) (V m c main_arg4))
    shapeCasts_S131072x256_S16384x8x256

/-- What the line after the region leaves in the first result's buffer. -/
theorem out_found (c : Dev nD) :
    (Pipeline.afterTail₀ cfgs (dats m) 0 (V0 m) [hostOps1] c main_v14 : FVec Ideal S16384x8x256 .f32) = out m c := by
  have e : Pipeline.withArrays (cfgs 0).spec c (V0 m c) (fun w => (dats m 0 c).arrAt w (cfgs 0).N) (Proc.devRef .tc main_v13)
      = Blocks.flatArr (V m c main_v8) (V m c main_v10) (V m c main_v12) (V m c main_arg4) :=
    (Pipeline.withArrays_arr spec0 launch0.win.arr_inj c _ _ 4).trans (Blocks.final m c)
  unfold Pipeline.afterTail₀
  show StableHlo.after hostOps1 _ (Proc.devRef .tc main_v14) = _
  after_results
  rw [e]
  rfl

/-- The line after the region leaves the mask's buffer as the region found it. -/
theorem mask_kept (c : Dev nD) :
    Pipeline.afterTail₀ cfgs (dats m) 0 (V0 m) [hostOps1] c main_v7 = V m c main_v7 := by
  unfold Pipeline.afterTail₀
  rw [StableHlo.after_of_forall_not_mem (b := Proc.devRef .tc main_v7) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_v7 (by exact (by decide : ∀ w, Pipeline.arrRef spec0 w ≠ main_v7))]

/-- The flattened form at row p is the step form at token (n, b) once the four flattened arrays read, on that row, as
    the token's entries, its mask entry, the transposed weights and the bias. -/
theorem flatStep_eq (A : S131072x256.Idx → EReal) (M : S131072x1.Idx → EReal) (Vt : S256x256.Idx → EReal) (B : S256.Idx → EReal)
    (x : Cert.Blend.Tok.Idx → EReal) (W : Cert.Blend.Wt.Idx → EReal) (β : Cert.Blend.Bias.Idx → EReal) (μ : Cert.Blend.Msk.Idx → EReal)
    (p : Fin 131072) (n : Fin 16384) (b : Fin 8) (d : Fin 256)
    (hA : ∀ k : Fin 256, A (ix2 p k) = x (ix3 n b k)) (hM : M (ix2 p (0 : Fin 1)) = μ (ix2 n b))
    (hV : ∀ k : Fin 256, Vt (ix2 k d) = W (ix2 d k)) (hB : B (ix1 d) = β (ix1 d)) :
    Blocks.flatStep A M Vt B p d = Cert.Blend.stepAt x W β μ n b d := by
  unfold Blocks.flatStep Cert.Blend.stepAt Cert.Blend.image
  rw [hA d, hM, hB]
  simp only [hA, hV]

/-- The first result at token (n, b) and channel d is the step form of the arguments and the mask. -/
theorem out_at (c : Dev nD) (n : Fin 16384) (b : Fin 8) (d : Fin 256) :
    out m c (ix3 n b d) = Cert.Blend.stepAt (m ((c : Thread nD τ).loc main_arg0)) (m ((c : Thread nD τ).loc main_arg3))
      (m ((c : Thread nD τ).loc main_arg4)) (Entry.mask m c) n b d := by
  unfold out
  rw [shapeCast_apply _ _ (ix3 n b d) (ix2 (Entry.row n b) d) (by
    show (S131072x256.rowMajor (ix2 (Entry.row n b) d)).val = (S16384x8x256.rowMajor (ix3 n b d)).val
    rw [Shape.rowMajor_val_three, Shape.rowMajor_val_two]
    rfl)]
  exact flatStep_eq _ _ _ _ _ _ _ _ (Entry.row n b) n b d (fun k => Entry.tokens_at m c n b k) (Entry.maskcol_at m c n b)
    (fun k => Entry.matrix_at m c k d) (congrFun (V_main_arg4 m c) _)

/-- THE KERNEL'S RUN, READ: every weakly fair execution terminates with the first result at `out`, the second at the
    mask, and the arguments unchanged. -/
theorem run : θ_run defs (onTc (τ := τ) (main (F := Ideal))) ⟨m, fun _ => 0, ρ⟩ fun r => ∀ c : Dev nD,
      r.2.mem ((c.tc : Thread nD τ).loc main_v14) = out m c
      ∧ r.2.mem ((c.tc : Thread nD τ).loc main_v7) = Entry.mask m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v14 (Pipeline.mem_restRefs_of main_v14 (by decide) (by decide))).trans (out_found m c),
      ((h c).2 main_v7 (Pipeline.mem_restRefs_of main_v7 (by decide) (by decide))).trans ((mask_kept m c).trans (Entry.mask_found m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).1 3).trans (((dats m 0 c).arrAt_in 3 rfl _).trans ((A_eq m c 3).trans (V_main_arg4 m c)))⟩)
    (run_main m ρ)

end Cert.KernelIdeal.Result

end
-- ==== Proof.lean ====
/-
  A masked token update, kernel against reference, on the extended reals.

  Both programs take tokens x (16384 × 8 tokens of 256 channels), padding flags, foreground flags, a 256 × 256
  weight matrix W and a bias β, form the mask μ(n, b) = [fg(n, b) ≠ 0] · (1 − pad(b, n)) and the rectified affine
  image y(n, b, d) = max (∑ k, x(n, b, k) · W(d, k) + β(d)) 0, and return the blend of x and y by μ together with μ.

  The kernel flattens the tokens to 131072 rows, works on 32 blocks of 4096 rows against the transposed matrix, and
  writes x + μ · (y − x); the reference contracts the channel axis in place and writes x · (1 − μ) + y · μ.  The two
  contractions are the same finite sums (Payload, RefValue), the flattening and the transposition only rename indices
  (Entry, Blocks, Result), and the two blends agree because under the precondition every entry of x, W and β is a real
  number (Finite) and every mask entry is an integer read as a real: the ring identity of Blend.  The second result,
  the mask, is the same term of the flags in both programs.

  The three frames are the generated ones (the reference's is its generated run with the results dropped); the kernel's
  idealization rewrote nothing, so the preservation claim is the trivial one.
-/
import proofs.«165763_j91336774517591_2_alg».proof.Defs
import proofs.«165763_j91336774517591_2_alg».proof.Proof.Gen.Kernel
import proofs.«165763_j91336774517591_2_alg».proof.Proof.Gen.Kernel.Skeleton
import proofs.«165763_j91336774517591_2_alg».proof.Proof.Gen.Kernel.Launch
import proofs.«165763_j91336774517591_2_alg».proof.Proof.Gen.Kernel.Points
import proofs.«165763_j91336774517591_2_alg».proof.Proof.Gen.Kernel.Frame
import proofs.«165763_j91336774517591_2_alg».proof.Proof.Gen.KernelIdeal
import proofs.«165763_j91336774517591_2_alg».proof.Proof.Gen.KernelIdeal.Skeleton
import proofs.«165763_j91336774517591_2_alg».proof.Proof.Gen.KernelIdeal.Launch
import proofs.«165763_j91336774517591_2_alg».proof.Proof.Gen.KernelIdeal.Points
import proofs.«165763_j91336774517591_2_alg».proof.Proof.Gen.KernelIdeal.Frame
import proofs.«165763_j91336774517591_2_alg».proof.Proof.Gen.ReferenceIdeal
import proofs.«165763_j91336774517591_2_alg».proof.Proof.Gen.Pre_finite_inputs
import proofs.«165763_j91336774517591_2_alg».proof.Proof.Gen.ReferenceIdeal.Run
import proofs.«165763_j91336774517591_2_alg».proof.Proof.Gen.ReferenceIdeal.Read
import proofs.«165763_j91336774517591_2_alg».proof.Proof.Blend
import proofs.«165763_j91336774517591_2_alg».proof.Proof.Finite
import proofs.«165763_j91336774517591_2_alg».proof.Proof.RefValue
import proofs.«165763_j91336774517591_2_alg».proof.Proof.Result
import Idealize.ShloMosaic.Adequacy
import Idealize.ShloMosaic.Init

noncomputable section

namespace Cert.Proof

open Idealize.ShloMosaic Idealize.ShloMosaic.TcCoe Idealize.SL.Sem Idealize.ShloMosaic.ValueIdx

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- From memories agreeing on the arguments the two programs end with equal results: the blends agree entry by entry
    by the ring identity on real entries, the masks are one term of the flags. -/
theorem algebraic : Cert.algebraic_KernelIdeal_ReferenceIdeal := by
  intro m ρ m' ρ' hpre hagree
  refine ⟨Cert.KernelIdeal.Result.out m, Cert.KernelIdeal.Entry.mask m, Cert.KernelIdeal.Result.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [(hagree c).1, (hagree c).2.1, (hagree c).2.2.1, (hagree c).2.2.2.1, (hagree c).2.2.2.2,
      Cert.ReferenceIdeal.Read.val_main_v21_eq]
    obtain ⟨h0, h3, h4⟩ := Cert.Pre_finite_inputs.Decode.real_of_pre _ _ _ _ _ (hpre c)
    funext i
    obtain ⟨n, b, d, rfl⟩ : ∃ (n : Fin 16384) (b : Fin 8) (d : Fin 256), i = ix3 n b d := ⟨i 0, i 1, i 2, eq_ix3 i⟩
    rw [Cert.ReferenceIdeal.RefValue.result_at]
    show _ = Cert.KernelIdeal.Result.out m c (ix3 n b d)
    rw [Cert.KernelIdeal.Result.out_at]
    exact (Cert.Blend.stepAt_eq_mixAt _ _ _ _ h0 h3 h4 (Cert.KernelIdeal.Entry.mask_real m c) n b d).symm
  · rw [(hagree c).2.1, (hagree c).2.2.1]
    rfl

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
